-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : FVec F S128x128 .f32) (main_arg2 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S128x128 : Shape := ⟨2, ![128, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩

abbrev nBuf : Space → Nat
  | .hbm => 56
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S2x800000, .i32⟩
  | .hbm, ⟨3, _⟩ => ⟨S50000, .i32⟩
  | .hbm, ⟨4, _⟩ => ⟨S1x800000, .i32⟩
  | .hbm, ⟨5, _⟩ => ⟨S800000, .i32⟩
  | .hbm, ⟨6, _⟩ => ⟨S850000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S850000, .f32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S128x128, .f32⟩
  | .hbm, ⟨38, _⟩ => ⟨S50000x128, .f32⟩
  | .hbm, ⟨39, _⟩ => ⟨S850000x1, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x128, .f32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S2x800000, .i32⟩
  | .hbm, ⟨3, _⟩ => ⟨S50000, .i32⟩
  | .hbm, ⟨4, _⟩ => ⟨S1x800000, .i32⟩
  | .hbm, ⟨5, _⟩ => ⟨S800000, .i32⟩
  | .hbm, ⟨6, _⟩ => ⟨S850000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S850000, .f32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S128x128, .f32⟩
  | .hbm, ⟨38, _⟩ => ⟨S50000x128, .f32⟩
  | .hbm, ⟨39, _⟩ => ⟨S850000x1, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x128, .f32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_cst : Ref sig .tc := ⟨.hbm, 55, rfl⟩
abbrev main_call0_v0 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Projection.lean ====
/-
  Region 0 (the linear projection) as one whole-array function.

  The grid has 25 points; point t stages rows 2000·t … 2000·t + 1999 of the node features (all 128 columns), the whole
  transposed weight matrix, and writes back the same rows of the output. Inside a block the body multiplies the
  2000 × 128 block by the 128 × 128 matrix into a zero accumulator; the changes of float format around the product
  are the identity on the extended reals. So entry (p, q) of block t is ∑ k, x (2000·t + p, k) · wt (k, q): the
  contraction axis is never split, and the block is exactly the restriction of the whole product
  x · wt to the block's rows. The 25 blocks tile the 50000 rows, so the array ends holding the whole product.
-/
import proofs.«113288_j18442589569934_2_alg».proof.Proof.Gen.KernelIdeal.Frame
import proofs.«113288_j18442589569934_2_alg».proof.Proof.Gen.ReferenceIdeal
import proofs.«113288_j18442589569934_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The whole product of the node features with the transposed weights: the host's one matrix product over all
    50000 rows. -/
def wholeProduct (x : FVec Ideal S50000x128 .f32) (wt : FVec Ideal S128x128 .f32) : FVec Ideal S50000x128 .f32 :=
  Host.dotGeneral Cert.ReferenceIdeal.dot_S50000x128_S128x128_S50000x128_1_0_0_1_n_n none x wt

/-- Entry (P, q) of the whole product is the sum over the 128 contraction positions. -/
theorem wholeProduct_apply (x : FVec Ideal S50000x128 .f32) (wt : FVec Ideal S128x128 .f32) (P : Fin 50000) (q : Fin 128) :
    wholeProduct x wt (ix2 P q) = ∑ k : Fin 128, x (ix2 P k) * wt (ix2 k q) :=
  Cert.Lib.PlainDot.dotGeneral_apply (a := 50000) (c := 128) (b := 128)
    Cert.ReferenceIdeal.Facts₀.dot_S50000x128_S128x128_S50000x128_1_0_0_1_n_n_wf none x wt P q

/-- Entry (p, q) of the body's stored value: the block's row p against column q of the staged matrix. -/
theorem payload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Cert.Lib.PlainDot.matmul_zero_apply (a := 2000) (c := 128) (b := 128)
    Facts₀.dot_S2000x128_S128x128_S2000x128_1_0_0_1_n_n_wf none _ _ p q).trans ?_
  refine Finset.sum_congr rfl fun k _ => ?_
  rw [truncf_apply, truncf_apply, shapeCast_self]

/-- A block of rows against the whole matrix is the whole product on those rows: if the block's row p is the array's
    row P and the staged matrix is the whole matrix, entry (p, q) of the body's value is entry (P, q) of the whole
    product. -/
theorem payload_eq_wholeProduct (X : FVec Ideal S50000x128 .f32) (W : FVec Ideal S128x128 .f32)
    (x0 : Vec Ideal S2000x128 .f32) (x1 : Vec Ideal S128x128 .f32) (p : Fin 2000) (q : Fin 128) (P : Fin 50000)
    (hx0 : ∀ k : Fin 128, x0 (ix2 p k) = X (ix2 P k)) (hx1 : ∀ k : Fin 128, x1 (ix2 k q) = W (ix2 k q)) :
    k0_pay1 (F := Ideal) x0 x1 (ix2 p q) = wholeProduct X W (ix2 P q) := by
  rw [payload_apply, wholeProduct_apply]
  exact Finset.sum_congr rfl fun k _ => by rw [hx0 k, hx1 k]

end Cert.KernelIdeal.Projection

end
-- ==== Proof.ProjectionArray.lean ====
/-
  Region 0's output array after its 25 points.

  Point t writes back rows 2000·t … 2000·t + 1999; what it writes is that block of the whole product of the arrays the
  region found at its entry (the node features in window 0, the transposed weights in window 1). Every row r lies in
  the block of point r / 2000, so the blocks cover the array and the array ends as the whole product.
-/
import proofs.«113288_j18442589569934_2_alg».proof.Proof.Projection

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zeroOffset : (![0, 0] : Fin 2 → Nat) = fun _ => 0 := funext fun a => by fin_cases a <;> rfl

/-- The block indices over the grid: the features' and the output's row block move together and stay below 25, every
    column block is block 0, and the weights' block never moves. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Each of the 25 row blocks is some point's. -/
theorem rowBlock_onto : ∀ b : Fin 25, ∃ t : Fin cfg0.N, win0_2.index t = ![b.val, 0] :=
  (by decide +kernel : ∀ b : Fin 25, ∃ t : Fin grid0.N, win0_2.index t = ![b.val, 0])

/-- What point t writes back is block t of the whole product of the entry arrays. -/
theorem flushed_eq (c : Dev nD) (t : Fin cfg0.N) :
    (dat0 V c).flushed 2 t
      = ((cfg0.win 2).blk t).view.read (Elt Ideal) (wholeProduct (V c main_arg0) (V c main_v28)) := by
  show (cfg0.win 2).cut (grid0.coords t) ((dat0 V c).after 2 t) = _
  rw [after0_2]
  unfold out0_2
  rw [View.canon_unit_zero zeroOffset]
  simp only [View.ld_unit_zero (S := S2000x128) zeroOffset, View.ld_unit_zero (S := S128x128) zeroOffset]
  obtain ⟨e0, e1, e2, e3, e4, e5⟩ := blockIndices t
  funext j
  obtain ⟨p, q, rfl⟩ : ∃ (p : Fin 2000) (q : Fin 128), j = ix2 p q := ⟨j 0, j 1, eq_ix2 j⟩
  have hp : p.val < 2000 := p.isLt
  have hP : win0_2.index t (0 : Fin 2) * 2000 + p.val < 50000 := by omega
  show k0_pay1 (iblk0 V c 0 t) (iblk0 V c 1 t) (ix2 p q)
    = wholeProduct (V c main_arg0) (V c main_v28) (((cfg0.win 2).blk t).view.emb (ix2 p q))
  have hemb : ((cfg0.win 2).blk t).view.emb (ix2 p q)
      = ix2 (⟨win0_2.index t (0 : Fin 2) * 2000 + p.val, hP⟩ : Fin 50000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  rw [hemb]
  refine payload_eq_wholeProduct (V c main_arg0) (V c main_v28) (iblk0 V c 0 t) (iblk0 V c 1 t) p q
    (⟨win0_2.index t (0 : Fin 2) * 2000 + p.val, hP⟩ : Fin 50000) ?_ ?_
  · intro k
    show V c main_arg0 (((cfg0.win 0).blk t).view.emb (ix2 p k))
      = V c main_arg0 (ix2 (⟨win0_2.index t (0 : Fin 2) * 2000 + p.val, hP⟩ : Fin 50000) k)
    refine congrArg (V c main_arg0) ?_
    funext a; apply Fin.ext
    match a with
    | ⟨0, _⟩ => show win0_0.index t (0 : Fin 2) * 2000 + 1 * p.val = win0_2.index t (0 : Fin 2) * 2000 + p.val; omega
    | ⟨1, _⟩ => show win0_0.index t (1 : Fin 2) * 128 + 1 * k.val = k.val; omega
  · intro k
    show V c main_v28 (((cfg0.win 1).blk t).view.emb (ix2 k q)) = V c main_v28 (ix2 k q)
    refine congrArg (V c main_v28) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index is in point t's output block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- Row r is in the block of point r / 2000: the 25 blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := rowBlock_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the whole product of the arrays the region found at its entry. -/
theorem final (c : Dev nD) :
    (dat0 V c).arrAt 2 cfg0.N = wholeProduct (V c main_arg0) (V c main_v28) :=
  (dat0 V c).arrAt_eq_of_cover 2 _ (fun t _ => flushed_eq V c t) covered

end Cert.KernelIdeal.Projection

end
-- ==== Proof.Rectifier.lean ====
/-
  Region 1 (the activation) as one whole-array function.

  The grid has 25 points; point t stages rows 2000·t … 2000·t + 1999 of the aggregated array and writes back the same
  rows of the result. The body takes the entrywise maximum of the block with zero, so block t of the result is the
  restriction to its rows of the entrywise maximum of the whole array with zero; the blocks tile the 50000 rows.
-/
import proofs.«113288_j18442589569934_2_alg».proof.Proof.Gen.KernelIdeal.Frame
import Idealize.ShloMosaic.Lib.Pipeline.Value
import Idealize.ShloMosaic.Lib.ValueIdx

set_option maxRecDepth 16384

noncomputable section

namespace Cert.KernelIdeal.Rectifier

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The entrywise maximum of a whole array with zero, spelt as the host spells it: against the zero scalar broadcast
    to the array's shape. -/
def relu (a : FVec Ideal S50000x128 .f32) : FVec Ideal S50000x128 .f32 :=
  maximumf a (broadcastInDim S50000x128 ![] Facts₀.bcast_S_S50000x128 (constant S_ .f32 0x00000000#32))

/-- At an index it is the maximum of the entry and the zero word's value. -/
theorem relu_apply (a : FVec Ideal S50000x128 .f32) (i : S50000x128.Idx) :
    relu a i = max (a i) (Ideal.ofBits .f32 0x00000000#32) := by
  unfold relu
  rw [maximumf_apply, broadcastInDim_apply ![] Facts₀.bcast_S_S50000x128 _ i ix0 (fun a => a.elim0), constant_apply]

/-- At an index the body's stored value is the maximum of the loaded entry and the zero word's value. -/
theorem payload_apply (x0 : Vec Ideal S2000x128 .f32) (j : S2000x128.Idx) :
    k1_pay1 (F := Ideal) x0 j = max (x0 j) (Ideal.ofBits .f32 0x00000000#32) := by
  unfold k1_pay1
  rw [maximumf_apply, shapeCast_self, broadcast_apply]
  rfl

/-- A block entry equal to an array entry rectifies to the rectified array's entry. -/
theorem payload_eq_relu (A : FVec Ideal S50000x128 .f32) (x0 : Vec Ideal S2000x128 .f32) (j : S2000x128.Idx)
    (i : S50000x128.Idx) (h : x0 j = A i) : k1_pay1 (F := Ideal) x0 j = relu A i := by
  rw [payload_apply, relu_apply, h]

variable (V : (c : Dev nD) → (b : Ref sig .tc) → Buf (Elt Ideal) ((c : Thread nD τ).loc b))

theorem zeroOffset : (![0, 0] : Fin 2 → Nat) = fun _ => 0 := funext fun a => by fin_cases a <;> rfl

/-- The block indices over the grid: the input's and the output's row block move together and stay below 25, and every
    column block is block 0. -/
theorem blockIndices : ∀ t : Fin cfg1.N, win1_0.index t (0 : Fin 2) = win1_1.index t (0 : Fin 2)
    ∧ win1_0.index t (1 : Fin 2) = win1_1.index t (1 : Fin 2)
    ∧ win1_1.index t (1 : Fin 2) = 0
    ∧ win1_1.index t (0 : Fin 2) ≤ 24 :=
  (by decide +kernel : ∀ t : Fin grid1.N, _)

/-- Each of the 25 row blocks is some point's. -/
theorem rowBlock_onto : ∀ b : Fin 25, ∃ t : Fin cfg1.N, win1_1.index t = ![b.val, 0] :=
  (by decide +kernel : ∀ b : Fin 25, ∃ t : Fin grid1.N, win1_1.index t = ![b.val, 0])

/-- What point t writes back is block t of the rectified entry array. -/
theorem flushed_eq (c : Dev nD) (t : Fin cfg1.N) :
    (dat1 V c).flushed 1 t = ((cfg1.win 1).blk t).view.read (Elt Ideal) (relu (V c main_v42)) := by
  show (cfg1.win 1).cut (grid1.coords t) ((dat1 V c).after 1 t) = _
  rw [after1_1]
  unfold out1_1
  rw [View.canon_unit_zero zeroOffset]
  simp only [View.ld_unit_zero (S := S2000x128) zeroOffset]
  obtain ⟨e0, e1, e2, e3⟩ := blockIndices t
  funext j
  show k1_pay1 (iblk1 V c 0 t) j = relu (V c main_v42) (((cfg1.win 1).blk t).view.emb j)
  refine payload_eq_relu (V c main_v42) (iblk1 V c 0 t) j (((cfg1.win 1).blk t).view.emb j) ?_
  show V c main_v42 (((cfg1.win 0).blk t).view.emb j) = V c main_v42 (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 2000 + 1 * (j 0).val = win1_1.index t (0 : Fin 2) * 2000 + 1 * (j 0).val; omega
    | ⟨1, _⟩ => show win1_0.index t (1 : Fin 2) * 128 + 1 * (j 1).val = win1_1.index t (1 : Fin 2) * 128 + 1 * (j 1).val; omega
  rw [h0]

/-- An index is in point t's output block iff each coordinate is in the block's range on its axis. -/
theorem mem_block (t : Fin cfg1.N) (i : S50000x128.Idx) :
    i ∈ ((cfg1.win 1).blk t).view.set ↔ ∀ a : Fin 2, win1_1.index t a * S2000x128.size a ≤ (i a).val
      ∧ (i a).val < win1_1.index t a * S2000x128.size a + S2000x128.size a := by
  show i ∈ ((View.whole main_v43).slice (win1_1.rect t)).set ↔ _
  rw [View.set_slice_whole, Rect.mem_set_unit]
  exact Iff.rfl

/-- Row r is in the block of point r / 2000: the 25 blocks cover the array. -/
theorem covered (i : S50000x128.Idx) :
    ∃ t : Fin cfg1.N, (cfg1.win 1).flush t = true ∧ i ∈ ((cfg1.win 1).blk t).view.set := by
  have hi0 : (i 0).val < 50000 := (i 0).isLt
  have hi1 : (i 1).val < 128 := (i 1).isLt
  obtain ⟨t, ht⟩ := rowBlock_onto ⟨(i 0).val / 2000, by omega⟩
  have q0 : win1_1.index t (0 : Fin 2) = (i 0).val / 2000 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 2000 ≤ (i 0).val ∧ (i 0).val < win1_1.index t (0 : Fin 2) * 2000 + 2000; omega
  | ⟨1, _⟩ => show win1_1.index t (1 : Fin 2) * 128 ≤ (i 1).val ∧ (i 1).val < win1_1.index t (1 : Fin 2) * 128 + 128; omega

/-- The result array after the region: the rectified contents of the array the region found at its entry. -/
theorem final (c : Dev nD) : (dat1 V c).arrAt 1 cfg1.N = relu (V c main_v42) :=
  (dat1 V c).arrAt_eq_of_cover 1 _ (fun t _ => flushed_eq V c t) covered

end Cert.KernelIdeal.Rectifier

end
-- ==== Proof.SparseStage.lean ====
/-
  The sparse stage of the layer, which both programs run on the host, as four functions kept folded.

  From the edge list e (2 × 800000 node numbers) the programs build, with a self-loop appended per node:
  rows and cols (the 850000 edge ends), the normalized edge weights
  w = 1 · dinv[rows] · dinv[cols] with dinv = rsqrt of the column degrees (a scatter-add of ones by cols),
  and then, from a projected feature array h, the aggregate: scatter-add by rows of w ⊙ h[cols]
  (a negative node number is wrapped by + 50000 before each gather, as the host does).
  The gather, the scatter-add and rsqrt enter only as functions: the layer's value depends on the projection through
  the one argument h of the aggregate, so two projections that agree as arrays give the same layer.
-/
import proofs.«113288_j18442589569934_2_alg».proof.KernelIdeal
import proofs.«113288_j18442589569934_2_alg».proof.Proof.Gen.KernelIdeal

set_option maxRecDepth 8192

noncomputable section

namespace Cert.KernelIdeal.Sparse

open Cert.KernelIdeal Cert.KernelIdeal.Facts₀ Idealize.ShloMosaic

variable {F : FTy → Type} [FloatOps F]

/-- The edges' first ends, then each node once. -/
def rows (e : IVec S2x800000 32) : IVec S850000 32 :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The edges' second ends, then each node once. -/
def cols (e : IVec S2x800000 32) : IVec S850000 32 :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- The normalized edge weights: 1 · dinv[rows] · dinv[cols], dinv the inverse square root of the column degrees. -/
def edgeWeights (e : IVec S2x800000 32) : FVec F S850000 .f32 :=
  (mulf (mulf (broadcastInDim S850000 ![] bcast_S_S850000 (constant S_ .f32 0x3F800000#32)) (Host.gather gather_S50000_S850000x1_S850000_n_0_n_n_0_1_1 (Host.rsqrt (Host.scatterAdd scatter_S50000_S850000x1_S850000_n_0_0_1 (broadcastInDim S50000 ![] bcast_S_S50000 (constant S_ .f32 0x00000000#32)) (broadcastInDim S850000x1 ![0] bcast_S850000_S850000x1_0 (cols e)) (broadcastInDim S850000 ![] bcast_S_S850000 (constant S_ .f32 0x3F800000#32)))) (broadcastInDim S850000x1 ![0] bcast_S850000_S850000x1_0 (select (cmpi .slt (rows e) (broadcastInDim S850000 ![] bcast_S_S850000 (constantI S_ 32 0#32))) (addi (rows e) (broadcastInDim S850000 ![] bcast_S_S850000 (constantI S_ 32 50000#32))) (rows e))))) (Host.gather gather_S50000_S850000x1_S850000_n_0_n_n_0_1_1 (Host.rsqrt (Host.scatterAdd scatter_S50000_S850000x1_S850000_n_0_0_1 (broadcastInDim S50000 ![] bcast_S_S50000 (constant S_ .f32 0x00000000#32)) (broadcastInDim S850000x1 ![0] bcast_S850000_S850000x1_0 (cols e)) (broadcastInDim S850000 ![] bcast_S_S850000 (constant S_ .f32 0x3F800000#32)))) (broadcastInDim S850000x1 ![0] bcast_S850000_S850000x1_0 (select (cmpi .slt (cols e) (broadcastInDim S850000 ![] bcast_S_S850000 (constantI S_ 32 0#32))) (addi (cols e) (broadcastInDim S850000 ![] bcast_S_S850000 (constantI S_ 32 50000#32))) (cols e)))))

/-- The aggregate of a projected feature array: the scatter-add by rows of the weighted rows gathered by cols. -/
def aggregate (r cl : IVec S850000 32) (w : FVec F S850000 .f32) (h : FVec F S50000x128 .f32) : FVec F S50000x128 .f32 :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 r) (mulf (broadcastInDim S850000x128 ![0, 1] bcast_S850000x1_S850000x128_0_1 (broadcastInDim S850000x1 ![0] bcast_S850000_S850000x1_0 w)) (Host.gather gather_S50000x128_S850000x1_S850000x128_1_0_n_n_0_1_1128 h (broadcastInDim S850000x1 ![0] bcast_S850000_S850000x1_0 (select (cmpi .slt cl (broadcastInDim S850000 ![] bcast_S_S850000 (constantI S_ 32 0#32))) (addi cl (broadcastInDim S850000 ![] bcast_S_S850000 (constantI S_ 32 50000#32))) cl)))))

end Cert.KernelIdeal.Sparse

end
-- ==== Proof.Layer.lean ====
/-
  The layer as one function of the three arguments: the rectified aggregate of the projected features,
  relu (A · (x · Wᵀ)) with A the normalized adjacency the sparse stage applies edge by edge.
-/
import proofs.«113288_j18442589569934_2_alg».proof.Proof.Projection
import proofs.«113288_j18442589569934_2_alg».proof.Proof.Rectifier
import proofs.«113288_j18442589569934_2_alg».proof.Proof.SparseStage

noncomputable section

namespace Cert.KernelIdeal.Layer

open Cert.KernelIdeal Idealize.ShloMosaic

/-- The layer's value: project the features by the transposed weights, aggregate along the edges with the normalized
    weights, rectify. -/
def layer (x : FVec Ideal S50000x128 .f32) (W : FVec Ideal S128x128 .f32) (e : IVec S2x800000 32) :
    FVec Ideal S50000x128 .f32 :=
  Rectifier.relu (Sparse.aggregate (Sparse.rows e) (Sparse.cols e) (Sparse.edgeWeights e)
    (Projection.wholeProduct x (transpose S128x128 [1, 0] W Facts₀.transposes_S128x128_S128x128_1_0)))

end Cert.KernelIdeal.Layer

end
-- ==== Proof.KernelRun.lean ====
/-
  The kernel program's run, with the result buffer in its post.

  @main is four segments: the host operations before the projection, the projection's region, the host operations
  between the regions, the activation's region. The contents of the TensorCore's buffers at each boundary are a fold
  through @main from the launch memory; at the return every unscoped buffer holds the last boundary's contents. The
  frame keeps only the three argument arrays from that; kept here as well is the result buffer, at the last
  boundary's contents: every weakly fair execution terminates, nothing faults, the arguments end as launched and
  the result buffer ends at what the activation's region leaves in it.
-/
import proofs.«113288_j18442589569934_2_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments: at the return the result buffer holds the last boundary's contents and the
    arguments are as launched. -/
theorem run_boundary : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Layer

end
-- ==== Proof.BetweenRegions.lean ====
/-
  The host operations between the two regions, read at the aggregate buffer.

  From any contents of the buffers, after these sixteen operations the aggregate buffer holds the aggregate of the
  contents of four buffers: the edges' first ends, their second ends, the edge weights, and the projection's output.
-/
import proofs.«113288_j18442589569934_2_alg».proof.Proof.Gen.KernelIdeal.Launch
import proofs.«113288_j18442589569934_2_alg».proof.Proof.SparseStage
import Idealize.ShloMosaic.Lib.StableHlo.Run
import Idealize.ShloMosaic.PureOps.Ideal

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem

/-- After the operations between the regions the aggregate buffer is the aggregate of what four buffers held. -/
theorem aggregate_of (Wv : Valuation τ sig (Elt Ideal)) :
    StableHlo.after (hostOps1 (F := Ideal)) Wv (Proc.devRef .tc main_v42)
      = Sparse.aggregate (F := Ideal) (Wv (Proc.devRef .tc main_v3)) (Wv (Proc.devRef .tc main_v6))
          (Wv (Proc.devRef .tc main_v27)) (Wv (Proc.devRef .tc main_v29)) := by
  after_results_simp <;> rfl

end Cert.KernelIdeal.Layer

end
-- ==== Proof.Boundaries.lean ====
/-
  The kernel program's result buffer, read back to the arguments.

  At the return the result buffer holds what the activation's region leaves: the rectified contents of the aggregate
  buffer at that region's entry. That buffer was written by the host operations between the regions: the aggregate of
  the rows, cols and edge weights the first stretch of host operations computed from the edge list (the projection's
  region does not touch them) and of the projection's output array, which the projection's region left as the whole
  product of the features as launched with the transposed weights. Put together: the layer's value of the arguments.
-/
import proofs.«113288_j18442589569934_2_alg».proof.Proof.ProjectionArray
import proofs.«113288_j18442589569934_2_alg».proof.Proof.Rectifier
import proofs.«113288_j18442589569934_2_alg».proof.Proof.SparseStage
import proofs.«113288_j18442589569934_2_alg».proof.Proof.Layer
import proofs.«113288_j18442589569934_2_alg».proof.Proof.KernelRun
import proofs.«113288_j18442589569934_2_alg».proof.Proof.BetweenRegions
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- At the projection's entry the features are as launched: no host operation writes them. -/
theorem entry_features (c : Dev nD) : V1 m ρ c main_arg0 = m ((c : Thread nD τ).loc main_arg0) := by
  show StableHlo.after hostOps0 (W0 m ρ c) (Proc.devRef .tc main_arg0) = _
  after_results_simp <;> rfl

/-- At the projection's entry its second operand is the transposed weight matrix. -/
theorem entry_weights (c : Dev nD) :
    V1 m ρ c main_v28
      = transpose S128x128 [1, 0] (m ((c : Thread nD τ).loc main_arg1)) Facts₀.transposes_S128x128_S128x128_1_0 := by
  show StableHlo.after hostOps0 (W0 m ρ c) (Proc.devRef .tc main_v28) = _
  after_results_simp <;> rfl

/-- After the projection's region its output array is the whole product of the features with the transposed
    weights. -/
theorem projected (c : Dev nD) :
    W2 m ρ c (Proc.devRef .tc main_v29)
      = Projection.wholeProduct (m ((c : Thread nD τ).loc main_arg0))
          (transpose S128x128 [1, 0] (m ((c : Thread nD τ).loc main_arg1)) Facts₀.transposes_S128x128_S128x128_1_0) :=
  (W2_arr m ρ c 2).trans ((Projection.final (V1 m ρ) c).trans
    (congrArg₂ Projection.wholeProduct (entry_features m ρ c) (entry_weights m ρ c)))

/-- The projection's region leaves the edges' first ends as the first stretch computed them. -/
theorem kept_rows (c : Dev nD) :
    W2 m ρ c (Proc.devRef .tc main_v3) = Sparse.rows (m ((c : Thread nD τ).loc main_arg2)) :=
  (W2_of_ne m ρ c main_v3 (by decide)).trans (by
    show StableHlo.after hostOps0 (W0 m ρ c) (Proc.devRef .tc main_v3) = _
    after_results_simp <;> rfl)

/-- The projection's region leaves the edges' second ends as the first stretch computed them. -/
theorem kept_cols (c : Dev nD) :
    W2 m ρ c (Proc.devRef .tc main_v6) = Sparse.cols (m ((c : Thread nD τ).loc main_arg2)) :=
  (W2_of_ne m ρ c main_v6 (by decide)).trans (by
    show StableHlo.after hostOps0 (W0 m ρ c) (Proc.devRef .tc main_v6) = _
    after_results_simp <;> rfl)

/-- The projection's region leaves the edge weights as the first stretch computed them. -/
theorem kept_weights (c : Dev nD) :
    W2 m ρ c (Proc.devRef .tc main_v27) = Sparse.edgeWeights (F := Ideal) (m ((c : Thread nD τ).loc main_arg2)) :=
  (W2_of_ne m ρ c main_v27 (by decide)).trans (by
    show StableHlo.after hostOps0 (W0 m ρ c) (Proc.devRef .tc main_v27) = _
    after_results_simp <;> rfl)

/-- At the activation's entry its operand is the aggregate of what the projection's region left. -/
theorem entry_aggregate (c : Dev nD) :
    V3 m ρ c main_v42
      = Sparse.aggregate (F := Ideal) (W2 m ρ c (Proc.devRef .tc main_v3)) (W2 m ρ c (Proc.devRef .tc main_v6))
          (W2 m ρ c (Proc.devRef .tc main_v27)) (W2 m ρ c (Proc.devRef .tc main_v29)) :=
  aggregate_of (W2 m ρ c)

/-- The result buffer at the return: the layer's value of the arguments as launched. -/
theorem result_value (c : Dev nD) :
    W4 m ρ c (Proc.devRef .tc main_v43)
      = layer (m ((c : Thread nD τ).loc main_arg0)) (m ((c : Thread nD τ).loc main_arg1))
          (m ((c : Thread nD τ).loc main_arg2)) := by
  refine (W4_arr m ρ c 1).trans ((Rectifier.final (V3 m ρ) c).trans (congrArg Rectifier.relu ?_))
  refine (entry_aggregate m ρ c).trans ?_
  rw [kept_rows m ρ c, kept_cols m ρ c, kept_weights m ρ c, projected m ρ c]

/-- The kernel program's run: every weakly fair execution terminates, nothing faults, the result buffer ends at the
    layer's value of the arguments, and the arguments end as launched. -/
theorem run : θ_run defs (onTc (τ := τ) (main (F := Ideal))) ⟨m, fun _ => 0, ρ⟩ (fun r => ∀ c : Dev nD,
      r.2.mem ((c.tc : Thread nD τ).loc main_v43)
        = layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_boundary (F := Ideal) m ρ)

end Cert.KernelIdeal.Layer

end
-- ==== Proof.ReferenceValue.lean ====
/-
  The reference program's result is the layer's value of its arguments.

  Its run ends with the result buffer at the composition of its host operations on the arguments: the same edge ends,
  edge weights and aggregate as the kernel program's, applied to the host's one product of the features with the
  transposed weights, then the entrywise maximum with zero. That composition is the layer's value, term for term.
-/
import proofs.«113288_j18442589569934_2_alg».proof.Proof.Gen.ReferenceIdeal.Run
import proofs.«113288_j18442589569934_2_alg».proof.Proof.Layer

set_option maxRecDepth 16384

noncomputable section

namespace Cert.ReferenceIdeal.RefValue

open Cert.ReferenceIdeal Idealize.ShloMosaic Idealize.ShloMosaic.TcCoe Idealize.SL.Sem

/-- The reference run's result term is the layer's value of the arguments' launch contents. -/
theorem result_eq (m : (ℓ : Loc nD τ sig) → Buf (Elt Ideal) ℓ) (c : Dev nD) :
    Cert.ReferenceIdeal.Value.res_main_v43 (F := Ideal) m c
      = Cert.KernelIdeal.Layer.layer (m ((c.tc : Thread nD τ).loc main_arg0)) (m ((c.tc : Thread nD τ).loc main_arg1))
          (m ((c.tc : Thread nD τ).loc main_arg2)) := by
  unfold Cert.ReferenceIdeal.Value.res_main_v43
  rfl

end Cert.ReferenceIdeal.RefValue

end
-- ==== Proof.lean ====
/-
  The claim: the kernel program and the reference compute the same graph-convolution layer on the extended reals.

  Both programs build, on the host and by the same operations, the edges' ends (with a self-loop per node), the
  normalized edge weights w = dinv[rows] · dinv[cols] from the column degrees, and the aggregate
  agg = scatter-add by rows of w ⊙ h[cols] of a projected feature array h; both end with the entrywise maximum of
  agg with zero. They differ in two places. The kernel computes h = x · Wᵀ in 25 blocks of 2000 rows, each block a
  product into a zero accumulator with the operands passed through a narrower float format, where the reference
  takes one product over all 50000 rows: on the extended reals a change of float format is the identity, and since
  the blocks split only the rows, entry (p, q) is the same sum over the 128 contraction positions on both sides, in
  the same order. The kernel takes the final maximum in 25 blocks of 2000 rows, where the reference takes it over the
  whole array: an entrywise operation does not see the blocks. No law of arithmetic that fails at an infinity is
  used, so the finiteness of the inputs is not needed for the value.

  The three programs' runs (termination, no fault, the arguments unchanged): the two kernel programs' by the generated
  frames over their four segments, the reference's by its generated run. The statement lists no rewrite of the
  idealization to account for: its conjunct for the idealized kernel program is `True`.
-/
import proofs.«113288_j18442589569934_2_alg».proof.Defs
import proofs.«113288_j18442589569934_2_alg».proof.Proof.Gen.Kernel
import proofs.«113288_j18442589569934_2_alg».proof.Proof.Gen.Kernel.Skeleton
import proofs.«113288_j18442589569934_2_alg».proof.Proof.Gen.Kernel.Launch
import proofs.«113288_j18442589569934_2_alg».proof.Proof.Gen.Kernel.Points
import proofs.«113288_j18442589569934_2_alg».proof.Proof.Gen.Kernel.Frame
import proofs.«113288_j18442589569934_2_alg».proof.Proof.Gen.KernelIdeal
import proofs.«113288_j18442589569934_2_alg».proof.Proof.Gen.KernelIdeal.Skeleton
import proofs.«113288_j18442589569934_2_alg».proof.Proof.Gen.KernelIdeal.Launch
import proofs.«113288_j18442589569934_2_alg».proof.Proof.Gen.KernelIdeal.Points
import proofs.«113288_j18442589569934_2_alg».proof.Proof.Gen.KernelIdeal.Frame
import proofs.«113288_j18442589569934_2_alg».proof.Proof.Gen.ReferenceIdeal
import proofs.«113288_j18442589569934_2_alg».proof.Proof.Gen.ReferenceIdeal.Run
import proofs.«113288_j18442589569934_2_alg».proof.Proof.Gen.Pre_finite_inputs
import proofs.«113288_j18442589569934_2_alg».proof.Proof.Boundaries
import proofs.«113288_j18442589569934_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the layer's value of those
    arguments. -/
theorem algebraic : Cert.algebraic_KernelIdeal_ReferenceIdeal := by
  intro m ρ m' ρ' _ hagree
  refine ⟨fun c => Cert.KernelIdeal.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Layer.run m ρ, ?_⟩
  refine (θ_run Cert.ReferenceIdeal.defs _ _).mono
    (fun _ h c => ⟨(h c).1.trans ((Cert.ReferenceIdeal.RefValue.result_eq m' c).trans ?_), (h c).2⟩)
    (Cert.ReferenceIdeal.Value.run (F := Ideal) m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
